-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S1024 : Shape := ⟨1, ![1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x2x1024 .f32) (main_arg1 : FVec F S1024 .f32) (main_arg2 : FVec F S1024 .f32) (main_arg3 : FVec F S1024 .f32) (main_arg4 : FVec F S1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2048x2x1024 : Shape := ⟨3, ![2048, 2, 1024]⟩
abbrev S1024 : Shape := ⟨1, ![1024]⟩
abbrev S1x1x1024 : Shape := ⟨3, ![1, 1, 1024]⟩
abbrev S_ : Shape := ⟨0, ![]⟩
abbrev S2048x32x64 : Shape := ⟨3, ![2048, 32, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩

abbrev nBuf : Space → Nat
  | .hbm => 37
  | .vmem => 8
  | .smem => 0
  | _ => 0

abbrev bufTy : (tb : Table) → Fin (tcTables nBuf tb) → BufTy
  | .hbm, ⟨0, _⟩ => ⟨S2048x2x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1x1024, .f32⟩
  | .hbm, ⟨10, _⟩ => ⟨S2048x2x1024, .f32⟩
  | .hbm, ⟨11, _⟩ => ⟨S2048x2x1024, .f32⟩
  | .hbm, ⟨12, _⟩ => ⟨S_, .f32⟩
  | .hbm, ⟨13, _⟩ => ⟨S2048x2x1024, .f32⟩
  | .hbm, ⟨14, _⟩ => ⟨S2048x2x1024, .f32⟩
  | .hbm, ⟨15, _⟩ => ⟨S1x1x1024, .f32⟩
  | .hbm, ⟨16, _⟩ => ⟨S2048x2x1024, .f32⟩
  | .hbm, ⟨17, _⟩ => ⟨S2048x2x1024, .f32⟩
  | .hbm, ⟨18, _⟩ => ⟨S1x1x1024, .f32⟩
  | .hbm, ⟨19, _⟩ => ⟨S2048x2x1024, .f32⟩
  | .hbm, ⟨20, _⟩ => ⟨S2048x2x1024, .f32⟩
  | .hbm, ⟨21, _⟩ => ⟨S2048x32x64, .f32⟩
  | .hbm, ⟨22, _⟩ => ⟨S32x2048x64, .f32⟩
  | .hbm, ⟨23, _⟩ => ⟨S32x2048x64, .bf16⟩
  | .hbm, ⟨24, _⟩ => ⟨S2048x32x64, .f32⟩
  | .hbm, ⟨25, _⟩ => ⟨S32x2048x64, .f32⟩
  | .hbm, ⟨26, _⟩ => ⟨S32x2048x64, .bf16⟩
  | .hbm, ⟨27, _⟩ => ⟨S2048x32x64, .f32⟩
  | .hbm, ⟨28, _⟩ => ⟨S32x2048x64, .f32⟩
  | .hbm, ⟨29, _⟩ => ⟨S32x2048x64, .bf16⟩
  | .hbm, ⟨30, _⟩ => ⟨S32x2048x64, .f32⟩
  | .hbm, ⟨31, _⟩ => ⟨S2048x32x64, .f32⟩
  | .hbm, ⟨32, _⟩ => ⟨S2048x2x1024, .f32⟩
  | .hbm, ⟨33, _⟩ => ⟨S2048x2x1024, .f32⟩
  | .hbm, ⟨34, _⟩ => ⟨S1x1x1024, .f32⟩
  | .hbm, ⟨35, _⟩ => ⟨S2048x2x1024, .f32⟩
  | .hbm, ⟨36, _⟩ => ⟨S2048x2x1024, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  bcast_S_S2048x2x1024 : S_.BroadcastsInDim S2048x2x1024 (![] : Fin 0 → Fin S2048x2x1024.rank)
  shapeCasts_S2048x2x1024_S2048x32x64 : S2048x2x1024.ShapeCasts S2048x32x64
  transposes_S2048x32x64_S32x2048x64_1_0_2 : S2048x32x64.Transposes [1, 0, 2] S32x2048x64
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  natLt_1_32 : 1 < 32
  shapeCasts_S512x64_S1x512x64 : S512x64.ShapeCasts S1x512x64
  transposes_S32x2048x64_S2048x32x64_1_0_2 : S32x2048x64.Transposes [1, 0, 2] S2048x32x64
  shapeCasts_S2048x32x64_S2048x2x1024 : S2048x32x64.ShapeCasts S2048x2x1024
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .bf16 = 32 ∨ (Rect.block (s := S32x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v17) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x2x1024 : Shape := ⟨3, ![2048, 2, 1024]⟩
abbrev S1024 : Shape := ⟨1, ![1024]⟩
abbrev S1x1x1024 : Shape := ⟨3, ![1, 1, 1024]⟩
abbrev S2048x32x64 : Shape := ⟨3, ![2048, 32, 64]⟩
abbrev S32x2048x64 : Shape := ⟨3, ![32, 2048, 64]⟩
abbrev S_ : Shape := ⟨0, ![]⟩
abbrev S32x2048x2048 : Shape := ⟨3, ![32, 2048, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1x1024, .f32⟩
  | .hbm, ⟨9, _⟩ => ⟨S2048x2x1024, .f32⟩
  | .hbm, ⟨10, _⟩ => ⟨S2048x2x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1x1024, .f32⟩
  | .hbm, ⟨15, _⟩ => ⟨S2048x2x1024, .f32⟩
  | .hbm, ⟨16, _⟩ => ⟨S2048x2x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1x1x1024, .f32⟩
  | .hbm, ⟨21, _⟩ => ⟨S2048x2x1024, .f32⟩
  | .hbm, ⟨22, _⟩ => ⟨S2048x2x1024, .f32⟩
  | .hbm, ⟨23, _⟩ => ⟨S2048x32x64, .f32⟩
  | .hbm, ⟨24, _⟩ => ⟨S32x2048x64, .f32⟩
  | .hbm, ⟨25, _⟩ => ⟨S2048x32x64, .f32⟩
  | .hbm, ⟨26, _⟩ => ⟨S32x2048x64, .f32⟩
  | .hbm, ⟨27, _⟩ => ⟨S2048x32x64, .f32⟩
  | .hbm, ⟨28, _⟩ => ⟨S32x2048x64, .f32⟩
  | .hbm, ⟨29, _⟩ => ⟨S_, .f32⟩
  | .hbm, ⟨30, _⟩ => ⟨S_, .f32⟩
  | .hbm, ⟨31, _⟩ => ⟨S32x2048x64, .f32⟩
  | .hbm, ⟨32, _⟩ => ⟨S32x2048x64, .f32⟩
  | .hbm, ⟨33, _⟩ => ⟨S32x2048x2048, .f32⟩
  | .hbm, ⟨34, _⟩ => ⟨S_, .f32⟩
  | .hbm, ⟨35, _⟩ => ⟨S32x2048x2048, .f32⟩
  | .hbm, ⟨36, _⟩ => ⟨S32x2048x2048, .i1⟩
  | .hbm, ⟨37, _⟩ => ⟨S32x2048x2048, .f32⟩
  | .hbm, ⟨38, _⟩ => ⟨S32x2048x2048, .f32⟩
  | .hbm, ⟨39, _⟩ => ⟨S32x2048x2048, .f32⟩
  | .hbm, ⟨40, _⟩ => ⟨S32x2048x64, .f32⟩
  | .hbm, ⟨41, _⟩ => ⟨S2048x32x64, .f32⟩
  | .hbm, ⟨42, _⟩ => ⟨S2048x2x1024, .f32⟩
  | .hbm, ⟨43, _⟩ => ⟨S2048x2x1024, .f32⟩
  | .hbm, ⟨44, _⟩ => ⟨S2048x2x1024, .f32⟩
  | .hbm, ⟨45, _⟩ => ⟨S2048x2x1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1x1x1024, .f32⟩
  | .hbm, ⟨50, _⟩ => ⟨S2048x2x1024, .f32⟩
  | .hbm, ⟨51, _⟩ => ⟨S2048x2x1024, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  shapeCasts_S2048x2x1024_S2048x32x64 : S2048x2x1024.ShapeCasts S2048x32x64
  transposes_S2048x32x64_S32x2048x64_1_0_2 : S2048x32x64.Transposes [1, 0, 2] S32x2048x64
  bcast_S_S32x2048x64 : S_.BroadcastsInDim S32x2048x64 (![] : Fin 0 → Fin S32x2048x64.rank)
  bcast_S_S32x2048x2048 : S_.BroadcastsInDim S32x2048x2048 (![] : Fin 0 → Fin S32x2048x2048.rank)
  transposes_S32x2048x64_S2048x32x64_1_0_2 : S32x2048x64.Transposes [1, 0, 2] S2048x32x64
  shapeCasts_S2048x32x64_S2048x2x1024 : S2048x32x64.ShapeCasts S2048x2x1024
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Spec.lean ====
/-
  The mathematics of the binarized attention layer, stated once over the head-major space and independent of either
  program.  An input x[s, b, e] is bound to a sign vector, re-laid as heads (head h = b·16 + e/64, channel d = e mod 64),
  the scores of a head are the inner products of its query and key rows, a score is binarized to 0 or 1 by its sign, the
  binarized row weighs the value rows, and the result is re-laid back, binarized to its sign and bound to the output sign
  vector.  Every sum is finite, so over real inputs every intermediate value is a real number; that is what lets the
  reference's straight-through forms (f y - y) + y collapse to f y.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx
open scoped BigOperators

/-- The input layout: position, batch, embedding. -/
abbrev SX : Shape := ⟨3, ![2048, 2, 1024]⟩
/-- Position, head, channel. -/
abbrev SM : Shape := ⟨3, ![2048, 32, 64]⟩
/-- Head, position, channel. -/
abbrev SH : Shape := ⟨3, ![32, 2048, 64]⟩
/-- A weight vector over the embedding axis, and the same as a [1, 1, 1024] array. -/
abbrev SW : Shape := ⟨1, ![1024]⟩
abbrev SW3 : Shape := ⟨3, ![1, 1, 1024]⟩

/-! ## Real-valued arrays -/

/-- Every entry is a real number (neither infinity). -/
def IsReal {ι : Type} (f : ι → EReal) : Prop := ∀ i, ∃ r : ℝ, f i = (r : EReal)

theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

/-- A finite sum of real numbers is a real number. -/
theorem real_sum {κ : Type} (s : Finset κ) (f : κ → EReal) (h : ∀ k, ∃ r : ℝ, f k = r) : ∃ r : ℝ, ∑ k ∈ s, f k = r := by
  classical
  induction s using Finset.induction_on with
  | empty => exact ⟨0, by simp⟩
  | insert a s ha ih =>
    obtain ⟨r, hr⟩ := ih; obtain ⟨q, hq⟩ := h a
    exact ⟨q + r, by rw [Finset.sum_insert ha, hr, hq, EReal.coe_add]⟩

/-- The sign is -1, 0 or 1 everywhere, the infinities included. -/
theorem real_sign (a : EReal) : ∃ r : ℝ, Ideal.sign a = r := by
  induction a using EReal.rec with
  | bot => exact ⟨-1, by show (-1 : EReal) = ((-1 : ℝ) : EReal); rw [EReal.coe_neg, EReal.coe_one]⟩
  | coe r => exact ⟨_, rfl⟩
  | top => exact ⟨1, by show (1 : EReal) = ((1 : ℝ) : EReal); rw [EReal.coe_one]⟩

/-- Subtracting and adding back a real number changes nothing, whatever the other term is. -/
theorem sub_add_cancel_real (a : EReal) (r : ℝ) : a - (r : EReal) + (r : EReal) = a := by
  induction a using EReal.rec with
  | bot => simp
  | coe q => rw [← EReal.coe_sub, ← EReal.coe_add, sub_add_cancel]
  | top => simp

/-! ## The constants: 1/8 and the square root of 64 -/

theorem ofBits_eighth : Ideal.ofBits .f32 0x3E000000#32 = ((1 / 8 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem sqrt_64 : Ideal.sqrt ((64 : ℝ) : EReal) = ((8 : ℝ) : EReal) := by
  rw [Ideal.sqrt_coe, if_neg (by norm_num)]
  congr 1
  rw [show (64 : ℝ) = 8 ^ 2 by norm_num]; exact Real.sqrt_sq (by norm_num)

/-- Dividing by the square root of 64 is multiplying by 1/8, on every extended real. -/
theorem div_sqrt64 (y : EReal) :
    Ideal.div y (Ideal.sqrt (Ideal.ofBits .f32 0x42800000#32)) = y * Ideal.ofBits .f32 0x3E000000#32 := by
  rw [ofBits_64, sqrt_64, ofBits_eighth, Ideal.div_coe (by norm_num : (8 : ℝ) ≠ 0)]

theorem real_eighth : ∃ r : ℝ, Ideal.ofBits .f32 0x3E000000#32 = r := ⟨_, ofBits_eighth⟩

/-! ## Binarized attention in one head -/

/-- The 0/1 weight of a score: 1 where the score is positive. -/
def ind (y : EReal) : EReal := if 0 < y then ((1 : ℝ) : EReal) else ((0 : ℝ) : EReal)

theorem real_ind (y : EReal) : ∃ r : ℝ, ind y = r := by
  unfold ind; split
  · exact ⟨1, rfl⟩
  · exact ⟨0, rfl⟩

/-- The score of query row n against key row m of head b: their inner product over the 64 channels. -/
def score (Q K : SH.Idx → EReal) (b : Fin 32) (n m : Fin 2048) : EReal :=
  ∑ d : Fin 64, Q (ix3 b n d) * K (ix3 b m d)

/-- Channel d of output row n of head b: the value rows whose score against query row n is positive, added up. -/
def attAt (Q K V : SH.Idx → EReal) (b : Fin 32) (n : Fin 2048) (d : Fin 64) : EReal :=
  ∑ m : Fin 2048, ind (score Q K b n m) * V (ix3 b m d)

/-- The whole head-major output. -/
def att (Q K V : SH.Idx → EReal) : SH.Idx → EReal := fun i => attAt Q K V (i 0) (i 1) (i 2)

theorem att_ix3 (Q K V : SH.Idx → EReal) (b : Fin 32) (n : Fin 2048) (d : Fin 64) :
    att Q K V (ix3 b n d) = attAt Q K V b n d := rfl

theorem real_score {Q K : SH.Idx → EReal} (hQ : IsReal Q) (hK : IsReal K) (b : Fin 32) (n m : Fin 2048) :
    ∃ r : ℝ, score Q K b n m = r :=
  real_sum _ _ fun _ => real_mul (hQ _) (hK _)

theorem real_att {Q K V : SH.Idx → EReal} (hV : IsReal V) : IsReal (att Q K V) := fun i => by
  unfold att attAt
  exact real_sum _ _ fun _ => real_mul (real_ind _) (hV _)

/-! ## The layout around the heads, and the whole layer -/

/-- Position-major to head-major: split the embedding axis into 16 heads of 64 channels, then bring the head axis forward. -/
def toHeads (y : SX.Idx → EReal) : SH.Idx → EReal :=
  transpose SH [1, 0, 2] (shapeCast SM y (by decide)) (by decide)

/-- Head-major back to position-major. -/
def fromHeads (o : SH.Idx → EReal) : SX.Idx → EReal :=
  shapeCast SX (transpose SM [1, 0, 2] o (by decide)) (by decide)

/-- A weight vector spread over every position and batch entry. -/
def perChannel (w : SW.Idx → EReal) : SX.Idx → EReal :=
  broadcastInDim SX ![0, 1, 2] (by decide) (broadcastInDim SW3 ![2] (by decide) w)

theorem real_toHeads {y : SX.Idx → EReal} (hy : IsReal y) : IsReal (toHeads y) := fun _ => hy _
theorem real_fromHeads {o : SH.Idx → EReal} (ho : IsReal o) : IsReal (fromHeads o) := fun _ => ho _
theorem real_perChannel {w : SW.Idx → EReal} (hw : IsReal w) : IsReal (perChannel w) := fun _ => hw _

/-- The input bound to the sign of a weight vector. -/
def bind (x : SX.Idx → EReal) (w : SW.Idx → EReal) : SX.Idx → EReal :=
  fun j => x j * perChannel (fun e => Ideal.sign (w e)) j

theorem real_bind {x : SX.Idx → EReal} (hx : IsReal x) (w : SW.Idx → EReal) : IsReal (bind x w) :=
  fun j => real_mul (hx j) (real_perChannel (fun e => real_sign (w e)) j)

/-- The head-major output of the layer: queries scaled by 1/8. -/
def heads (x : SX.Idx → EReal) (wq wk wv : SW.Idx → EReal) : SH.Idx → EReal :=
  att (toHeads fun j => bind x wq j * Ideal.ofBits .f32 0x3E000000#32) (toHeads (bind x wk)) (toHeads (bind x wv))

/-- The layer: the sign of the re-laid attention output, bound to the sign of the output weights. -/
def layer (x : SX.Idx → EReal) (wq wk wv wo : SW.Idx → EReal) : SX.Idx → EReal :=
  fun j => Ideal.sign (fromHeads (heads x wq wk wv) j) * perChannel (fun e => Ideal.sign (wo e)) j

theorem real_heads {x : SX.Idx → EReal} (hx : IsReal x) (wq wk wv : SW.Idx → EReal) : IsReal (heads x wq wk wv) :=
  real_att (real_toHeads (real_bind hx wv))

end Cert.Attn

end
-- ==== Proof.Finite.lean ====
/-
  The precondition says every input entry is a real number.  For each of the five inputs it asks that the absolute
  value max x (-x) of every entry x lie strictly below +∞, and takes the conjunction over all entries and all inputs.
  An extended real whose absolute value is below +∞ is neither +∞ (its absolute value is +∞) nor -∞ (its negation
  is +∞), so it is a real number.
-/
import proofs.«117379_j18270790877548_1_alg».proof.Pre_finite_inputs
import proofs.«117379_j18270790877548_1_alg».proof.Proof.Gen.Pre_finite_inputs
import proofs.«117379_j18270790877548_1_alg».proof.Proof.Spec
import Idealize.ShloMosaic.PureOps.Ideal.Laws
import Idealize.ShloMosaic.Lib.ValueIdx
import Idealize.ShloMosaic.Lib.ReduceAll

noncomputable section

namespace Cert.Attn.Finite

open Idealize.ShloMosaic Idealize.ShloMosaic.ValueIdx
open Cert.Pre_finite_inputs (S_ S1024 S2048x2x1024)

/-- The bit pattern of the bound the entries are compared with is +∞. -/
theorem ofBits_inf : Ideal.ofBits .f32 0x7F800000#32 = (⊤ : EReal) := by
  simp [Ideal.ofBits, Ideal.ieee]

/-- An extended real whose absolute value max x (-x) is strictly below +∞ is a real number. -/
theorem real_of_abs_lt (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- The scalar shape has a single index. -/
instance subsingleton_scalar_idx : Subsingleton S_.Idx := ⟨fun a b => funext fun d => d.elim0⟩

/-- One input: if the conjunction over all entries of "|x| < +∞" holds, every entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ix0 = 1#1) :
    Cert.Attn.IsReal a := fun i =>
  real_of_abs_lt (a i) (Host.reduce_andi_all _ _ hr hu ix0 h i)

theorem real_of_pre (a0 : FVec Ideal Cert.Pre_finite_inputs.S2048x2x1024 .f32)
    (a1 a2 a3 a4 : FVec Ideal Cert.Pre_finite_inputs.S1024 .f32)
    (h : Cert.Pre_finite_inputs.fn (F := Ideal) a0 a1 a2 a3 a4 = fun _ => 1#1) :
    Cert.Attn.IsReal a0 ∧ Cert.Attn.IsReal a1 ∧ Cert.Attn.IsReal a2 ∧ Cert.Attn.IsReal a3 ∧ Cert.Attn.IsReal a4 := by
  have h0 := congrFun h ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3,
    real_of_all a4 _ _ _ h4⟩

end Cert.Attn.Finite

end
-- ==== Proof.RefLayer.lean ====
/-
  The reference program's result is the layer of Spec.lean, over real inputs.

  The reference writes each binarization in straight-through form, (f y - y) + y, with f the sign or the
  indicator of positivity.  On the extended reals this is f y as soon as y is a real number: subtracting and
  re-adding a real number changes nothing, whatever f y is.  So the proof carries, stage by stage, the fact that the
  value is real-valued: the inputs are real by hypothesis; a sign is -1, 0 or 1; a product of two reals and a finite
  sum of reals are real; a reshape, a transpose and a broadcast only re-index.  With that,
    * each weight vector's (sign w - w) + w is sign w, and the bound input is x times that sign spread per channel;
    * the division of the head-major queries by the square root of 64 is the multiplication by 1/8
      (the square root of 64 is 8, and 8 is not zero);
    * the first contraction is the inner product over the 64 channels, a finite sum of real products;
    * (convert (s > 0) - s) + s is the 0/1 weight of the real score s;
    * the second contraction is the sum over the key positions of weight times value row, again real;
    * (sign o - o) + o is sign o on the re-laid real output o, and the result is that sign times the output sign vector.
-/
import proofs.«117379_j18270790877548_1_alg».proof.Proof.Spec
import proofs.«117379_j18270790877548_1_alg».proof.Proof.Gen.ReferenceIdeal.Read

noncomputable section

namespace Cert.Attn.Ref

open Idealize.ShloMosaic Idealize.ShloMosaic.ValueIdx Cert.ReferenceIdeal Cert.ReferenceIdeal.Read
open scoped BigOperators

/-! ## The straight-through form around the sign -/

/-- On a real-valued array, (sign w - w) + w is sign w: the subtracted and re-added term is a real number. -/
theorem ste_real {s : Shape} (w : FVec Ideal s .f32) (hw : IsReal w) :
    addf (subf (Host.sign w) w) w = fun e => Ideal.sign (w e) := by
  funext e
  obtain ⟨r, hr⟩ := hw e
  show Ideal.sign (w e) - w e + w e = Ideal.sign (w e)
  rw [hr]; exact sub_add_cancel_real _ r

theorem v2_eq (w : SW.Idx → EReal) (hw : IsReal w) :
    val_main_v2 (F := Ideal) w = fun e => Ideal.sign (w e) := by
  unfold val_main_v2 val_main_v1 val_main_v0
  exact ste_real w hw

theorem v8_eq (w : SW.Idx → EReal) (hw : IsReal w) :
    val_main_v8 (F := Ideal) w = fun e => Ideal.sign (w e) := by
  unfold val_main_v8 val_main_v7 val_main_v6
  exact ste_real w hw

theorem v14_eq (w : SW.Idx → EReal) (hw : IsReal w) :
    val_main_v14 (F := Ideal) w = fun e => Ideal.sign (w e) := by
  unfold val_main_v14 val_main_v13 val_main_v12
  exact ste_real w hw

theorem v41_eq (w : SW.Idx → EReal) (hw : IsReal w) :
    val_main_v41 (F := Ideal) w = fun e => Ideal.sign (w e) := by
  unfold val_main_v41 val_main_v40 val_main_v39
  exact ste_real w hw

/-! ## The input bound to each sign vector -/

theorem v5_eq (x : SX.Idx → EReal) (w : SW.Idx → EReal) (hw : IsReal w) :
    val_main_v5 (F := Ideal) x w = bind x w := by
  unfold val_main_v5 val_main_v4 val_main_v3
  rw [v2_eq w hw]
  rfl

theorem v11_eq (x : SX.Idx → EReal) (w : SW.Idx → EReal) (hw : IsReal w) :
    val_main_v11 (F := Ideal) x w = bind x w := by
  unfold val_main_v11 val_main_v10 val_main_v9
  rw [v8_eq w hw]
  rfl

theorem v17_eq (x : SX.Idx → EReal) (w : SW.Idx → EReal) (hw : IsReal w) :
    val_main_v17 (F := Ideal) x w = bind x w := by
  unfold val_main_v17 val_main_v16 val_main_v15
  rw [v14_eq w hw]
  rfl

theorem v43_eq (w : SW.Idx → EReal) (hw : IsReal w) :
    val_main_v43 (F := Ideal) w = perChannel (fun e => Ideal.sign (w e)) := by
  unfold val_main_v43 val_main_v42
  rw [v41_eq w hw]
  rfl

/-! ## The head-major layout: a reshape and a transpose only re-index -/

theorem v19_eq (x : SX.Idx → EReal) (w : SW.Idx → EReal) :
    val_main_v19 (F := Ideal) x w = toHeads (val_main_v5 (F := Ideal) x w) := by
  unfold val_main_v19 val_main_v18
  rfl

theorem v21_eq (x : SX.Idx → EReal) (w : SW.Idx → EReal) :
    val_main_v21 (F := Ideal) x w = toHeads (val_main_v11 (F := Ideal) x w) := by
  unfold val_main_v21 val_main_v20
  rfl

theorem v23_eq (x : SX.Idx → EReal) (w : SW.Idx → EReal) :
    val_main_v23 (F := Ideal) x w = toHeads (val_main_v17 (F := Ideal) x w) := by
  unfold val_main_v23 val_main_v22
  rfl

/-- Dividing the head-major queries by the square root of 64 multiplies each entry by 1/8. -/
theorem v26_eq (x : SX.Idx → EReal) (w : SW.Idx → EReal) (hw : IsReal w) :
    val_main_v26 (F := Ideal) x w = toHeads (fun j => bind x w j * Ideal.ofBits .f32 0x3E000000#32) := by
  funext i
  rw [val_main_v26_apply, val_main_v25_apply, val_main_v24_apply, val_main_cst_apply,
    Ideal.hostDivf_def, Ideal.hostUnary_sqrt_def, Ideal.ofBits_def, div_sqrt64, v19_eq, v5_eq x w hw]
  rfl

/-! ## Scores, their binarization, and the weighted sum of value rows -/

/-- The first contraction is the inner product over the 64 channels of a query row and a key row. -/
theorem v27_eq (x : SX.Idx → EReal) (wq wk : SW.Idx → EReal) :
    val_main_v27 (F := Ideal) x wq wk =
      fun i => score (val_main_v26 (F := Ideal) x wq) (val_main_v21 (F := Ideal) x wk) (i 0) (i 1) (i 2) := by
  funext i
  rw [val_main_v27_apply]
  unfold score
  refine Finset.sum_congr rfl fun k _ => ?_
  have el : lidx_main_v27 i k = ix3 (i 0) (i 1) k := funext fun a => Fin.ext (by
    match a with
    | ⟨0, _⟩ => rfl
    | ⟨1, _⟩ => rfl
    | ⟨2, _⟩ => rfl)
  have er : ridx_main_v27 i k = ix3 (i 0) (i 2) k := funext fun a => Fin.ext (by
    match a with
    | ⟨0, _⟩ => rfl
    | ⟨1, _⟩ => rfl
    | ⟨2, _⟩ => rfl)
  rw [el, er]
  rfl

/-- On a real score s, (convert (s > 0) - s) + s is the 0/1 weight of s. -/
theorem ste_ind (s : EReal) (hs : ∃ r : ℝ, s = r) :
    FloatOps.addf (FloatOps.subf (FloatOps.uitofp (F := Ideal) .f32
      (FloatOps.cmpf .ogt s (FloatOps.ofBits (F := Ideal) .f32 0x00000000#32))) s) s = ind s := by
  obtain ⟨r, rfl⟩ := hs
  show (((BitVec.ofBool (decide (Ideal.ofBits .f32 0x00000000#32 < (r : EReal)))).toNat : ℝ) : EReal) - (r : EReal) + (r : EReal)
    = ind (r : EReal)
  rw [sub_add_cancel_real, Ideal.ofBits_zero_f32]
  unfold ind
  by_cases h : (0 : EReal) < (r : EReal)
  · rw [if_pos h, decide_eq_true h]; simp
  · rw [if_neg h, decide_eq_false h]; simp

theorem v32_eq (x : SX.Idx → EReal) (wq wk : SW.Idx → EReal) (hs : IsReal (val_main_v27 (F := Ideal) x wq wk)) :
    val_main_v32 (F := Ideal) x wq wk = fun i => ind (val_main_v27 (F := Ideal) x wq wk i) := by
  funext i
  rw [val_main_v32_apply, val_main_v31_apply, val_main_v30_apply, val_main_v29_apply, val_main_v28_apply,
    val_main_cst_0_apply]
  exact ste_ind _ (hs i)

/-- The second contraction adds up, over the key positions, the binarized score times the value row. -/
theorem v33_eq (x : SX.Idx → EReal) (wq wk wv : SW.Idx → EReal) (hs : IsReal (val_main_v27 (F := Ideal) x wq wk)) :
    val_main_v33 (F := Ideal) x wq wk wv =
      att (val_main_v26 (F := Ideal) x wq) (val_main_v21 (F := Ideal) x wk) (val_main_v23 (F := Ideal) x wv) := by
  funext i
  rw [val_main_v33_apply, v32_eq x wq wk hs]
  unfold att attAt
  refine Finset.sum_congr rfl fun m _ => ?_
  have er : ridx_main_v33 i m = ix3 (i 0) m (i 2) := funext fun a => Fin.ext (by
    match a with
    | ⟨0, _⟩ => rfl
    | ⟨1, _⟩ => rfl
    | ⟨2, _⟩ => rfl)
  rw [er, v27_eq]
  rfl

/-! ## Back to the input layout, the output sign, and the whole layer -/

theorem v35_eq (x : SX.Idx → EReal) (wq wk wv : SW.Idx → EReal) :
    val_main_v35 (F := Ideal) x wq wk wv = fromHeads (val_main_v33 (F := Ideal) x wq wk wv) := by
  unfold val_main_v35 val_main_v34
  rfl

theorem v38_eq (x : SX.Idx → EReal) (wq wk wv : SW.Idx → EReal) (h : IsReal (val_main_v35 (F := Ideal) x wq wk wv)) :
    val_main_v38 (F := Ideal) x wq wk wv = fun j => Ideal.sign (val_main_v35 (F := Ideal) x wq wk wv j) := by
  unfold val_main_v38 val_main_v37 val_main_v36
  exact ste_real _ h

/-- Over real inputs the reference program computes the layer. -/
theorem reference_eq (x : Cert.Attn.SX.Idx → EReal) (wq wk wv wo : Cert.Attn.SW.Idx → EReal)
    (hx : IsReal x) (hq : IsReal wq) (hk : IsReal wk) (hv : IsReal wv) (ho : IsReal wo) :
    Cert.ReferenceIdeal.Read.val_main_v44 (F := Ideal) x wq wk wv wo = Cert.Attn.layer x wq wk wv wo := by
  have e26 := v26_eq x wq hq
  have e21 : val_main_v21 (F := Ideal) x wk = toHeads (bind x wk) := by rw [v21_eq, v11_eq x wk hk]
  have e23 : val_main_v23 (F := Ideal) x wv = toHeads (bind x wv) := by rw [v23_eq, v17_eq x wv hv]
  have hQ : IsReal (val_main_v26 (F := Ideal) x wq) := by
    rw [e26]; exact real_toHeads fun j => real_mul (real_bind hx wq j) real_eighth
  have hK : IsReal (val_main_v21 (F := Ideal) x wk) := by rw [e21]; exact real_toHeads (real_bind hx wk)
  have hV : IsReal (val_main_v23 (F := Ideal) x wv) := by rw [e23]; exact real_toHeads (real_bind hx wv)
  have hS : IsReal (val_main_v27 (F := Ideal) x wq wk) := by
    rw [v27_eq]; exact fun i => real_score hQ hK _ _ _
  have e33 := v33_eq x wq wk wv hS
  have e35 : val_main_v35 (F := Ideal) x wq wk wv = fromHeads (heads x wq wk wv) := by
    rw [v35_eq, e33, e26, e21, e23]; rfl
  have h35 : IsReal (val_main_v35 (F := Ideal) x wq wk wv) := by
    rw [e35]; exact real_fromHeads (real_heads hx wq wk wv)
  unfold val_main_v44
  rw [v38_eq x wq wk wv h35, v43_eq wo ho, e35]
  rfl

end Cert.Attn.Ref

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.KernelPayload.lean ====
/-
  One grid point of the kernel, as mathematics.  The body loads a block of 512 query rows and all 2048 key and value
  rows of one head (each with a leading unit axis), multiplies the query block by the transposed keys into a zero
  accumulator (the scores), turns each score into 1 where it is positive and 0 elsewhere, and multiplies that 0/1
  matrix by the values into a zero accumulator.  Read at row r and channel d, the stored block is therefore
  ∑ m, ind (∑ d', q (r, d') · k (m, d')) · v (m, d): the attention of Spec.lean restricted to the block's rows.
-/
import proofs.«117379_j18270790877548_1_alg».proof.Proof.Gen.KernelIdeal.Skeleton
import proofs.«117379_j18270790877548_1_alg».proof.Proof.Spec
import proofs.«117379_j18270790877548_1_alg».proof.Proof.LibDenseEntry
import Idealize.ShloMosaic.Lib.ValueLayout
import Idealize.ShloMosaic.Lib.ValueIdx
import Idealize.ShloMosaic.PureOps.Ideal.Laws

noncomputable section

namespace Cert.Attn.Block

open Cert.KernelIdeal Cert.KernelIdeal.Gen Idealize.ShloMosaic Idealize.ShloMosaic.ValueIdx Cert.Attn
open scoped BigOperators

/-- The comparison bit of "a is positive", widened to a word and read as a signed integer, is the 0/1 weight. -/
theorem bit_eq_ind (a : EReal) :
    (((BitVec.setWidth 32 (Ideal.cmp .ogt a (Ideal.ofBits .f32 0x00000000#32))).toInt : ℝ) : EReal) = ind a := by
  rw [Ideal.ofBits_zero_f32]
  unfold Ideal.cmp ind
  by_cases h : (0 : EReal) < a
  · simp [h]
  · simp [h]

/-- The binarized score matrix at an entry. -/
theorem weight_apply (s : FVec Ideal S512x2048 .f32) (j : S512x2048.Idx) :
    (truncf .bf16 (sitofp .f32 (extui 32 (cmpf .ogt s (broadcast S512x2048 (Scalar.ofBits .f32 0x00000000#32))) natLt_1_32)) bitsLt_bf16_f32 : FVec Ideal S512x2048 .bf16) j
      = ind (s j) :=
  bit_eq_ind (s j)

/-- The block the body stores, at row r and channel d. -/
theorem pay_apply (x0 : Vec Ideal S1x512x64 .bf16) (x1 x2 : Vec Ideal S1x2048x64 .bf16) (u : Fin 1) (r : Fin 512) (d : Fin 64) :
    k0_pay1 x0 x1 x2 (ix3 u r d)
      = ∑ m : Fin 2048, ind (∑ d' : Fin 64, x0 (ix3 (0 : Fin 1) r d') * x1 (ix3 (0 : Fin 1) m d')) * x2 (ix3 (0 : Fin 1) m d) := by
  unfold k0_pay1
  dsimp only
  refine (shapeCast_ab_1ab_apply _ _ u r d).trans ?_
  refine (Cert.LibDenseEntry.matmul_plain_zero_apply dot_S512x2048_S2048x64_S512x64_1_0_0_1_n_n rfl rfl rfl rfl rfl rfl none _ _ r d).trans ?_
  refine Finset.sum_congr rfl fun m _ => ?_
  refine congrArg₂ (· * ·) ?_ (shapeCast_1ab_ab_apply x2 _ m d)
  refine (weight_apply _ _).trans (congrArg ind ?_)
  refine (Cert.LibDenseEntry.matmul_plain_zero_apply dot_S512x64_S64x2048_S512x2048_1_0_0_1_n_n rfl rfl rfl rfl rfl rfl none _ _ r m).trans ?_
  refine Finset.sum_congr rfl fun d' _ => ?_
  exact congrArg₂ (· * ·) (shapeCast_1ab_ab_apply x0 _ r d')
    ((transpose_ix2_apply _ _ d' m).trans (shapeCast_1ab_ab_apply x1 _ m d'))

end Cert.Attn.Block

end
-- ==== Proof.KernelBlocks.lean ====
/-
  From grid points to the whole head-major output.  The grid is 32 heads by 4 blocks of 512 query rows.  At point
  (b, i) the query window and the output window sit at rows i·512 … i·512+511 of head b, and the key and value windows
  are all 2048 rows of head b.  So what the point writes back is exactly the rows i·512 … i·512+511 of head b of the
  attention of Spec.lean applied to the three head-major arrays the region finds; the 128 blocks tile the output
  array, hence the array ends holding that attention everywhere.
-/
import proofs.«117379_j18270790877548_1_alg».proof.Proof.Gen.KernelIdeal.Frame
import proofs.«117379_j18270790877548_1_alg».proof.Proof.KernelPayload
import Idealize.ShloMosaic.Lib.Pipeline.Value

noncomputable section

namespace Cert.Attn.Blocks

open Cert.KernelIdeal Cert.KernelIdeal.Gen Idealize.ShloMosaic Idealize.ShloMosaic.TcCoe Idealize.SL.Sem
open Idealize.ShloMosaic.ValueIdx Cert.Attn
open Idealize.ShloMosaic.Pipeline (Dat)
open scoped BigOperators

variable (m : (ℓ : Loc nD τ sig) → Buf (Elt Ideal) ℓ) (ρ : Dev nD → PrngReg)

theorem origin : (![0, 0, 0] : Fin 3 → Nat) = fun _ => 0 := funext fun a => by fin_cases a <;> rfl

/-- The index maps over the grid: queries and output move together (head, row block); keys and values follow the head
    only; no window moves along the channel axis. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) ≤ 3 ∧ win0_3.index t (2 : Fin 3) = 0 :=
  (by decide +kernel : ∀ t : Fin grid0.N, _)

/-- Every (head, row block) pair is some point's. -/
theorem idx_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- What point t writes back is its block of the attention of the three head-major arrays. -/
theorem flushed_eq (c : Dev nD) (t : Fin cfg0.N) :
    (dats m 0 c).flushed 3 t
      = ((cfg0.win 3).blk t).view.read (Elt Ideal) (att (V m c main_v17) (V m c main_v20) (V m c main_v23)) := by
  show (cfg0.win 3).cut (grid0.coords t) ((dats m 0 c).after 3 t) = _
  rw [after0_3]
  unfold out0_3
  rw [View.canon_unit_zero origin]
  simp only [View.ld_unit_zero (S := S1x512x64) origin, View.ld_unit_zero (S := S1x2048x64) origin]
  obtain ⟨e00, e01, e02, e10, e11, e12, e20, e21, e22, b0, b1, e32⟩ := idx_facts t
  refine funext fun (j : S1x512x64.Idx) => ?_
  obtain ⟨u, r, d, rfl⟩ : ∃ (u : Fin 1) (r : Fin 512) (d : Fin 64), j = ix3 u r d := ⟨j 0, j 1, j 2, eq_ix3 j⟩
  show k0_pay1 (iblk m c 0 t) (iblk m c 1 t) (iblk m c 2 t) (ix3 u r d)
    = att (V m c main_v17) (V m c main_v20) (V m c main_v23) (((cfg0.win 3).blk t).view.emb (ix3 u r d))
  have hu : u.val = 0 := by omega
  have hr : r.val < 512 := r.isLt
  have hemb : ((cfg0.win 3).blk t).view.emb (ix3 u r d)
      = ix3 (⟨win0_3.index t (0 : Fin 3), by omega⟩ : Fin 32) (⟨win0_3.index t (1 : Fin 3) * 512 + r.val, by omega⟩ : Fin 2048) d := by
    funext a; apply Fin.ext
    match a with
    | ⟨0, _⟩ => show win0_3.index t (0 : Fin 3) * 1 + 1 * u.val = win0_3.index t (0 : Fin 3); omega
    | ⟨1, _⟩ => show win0_3.index t (1 : Fin 3) * 512 + 1 * r.val = win0_3.index t (1 : Fin 3) * 512 + r.val; omega
    | ⟨2, _⟩ => show win0_3.index t (2 : Fin 3) * 64 + 1 * d.val = d.val; omega
  rw [hemb, att_ix3]
  refine (Block.pay_apply (iblk m c 0 t) (iblk m c 1 t) (iblk m c 2 t) u r d).trans ?_
  unfold attAt score
  refine Finset.sum_congr rfl fun mm _ => ?_
  refine congrArg₂ (· * ·) (congrArg ind (Finset.sum_congr rfl fun d' _ => congrArg₂ (· * ·) ?_ ?_)) ?_
  · show V m c main_v17 (((cfg0.win 0).blk t).view.emb (ix3 (0 : Fin 1) r d')) = V m c main_v17 _
    refine congrArg _ ?_
    funext a; apply Fin.ext
    match a with
    | ⟨0, _⟩ => show win0_0.index t (0 : Fin 3) * 1 + 1 * 0 = win0_3.index t (0 : Fin 3); omega
    | ⟨1, _⟩ => show win0_0.index t (1 : Fin 3) * 512 + 1 * r.val = win0_3.index t (1 : Fin 3) * 512 + r.val; omega
    | ⟨2, _⟩ => show win0_0.index t (2 : Fin 3) * 64 + 1 * d'.val = d'.val; omega
  · show V m c main_v20 (((cfg0.win 1).blk t).view.emb (ix3 (0 : Fin 1) mm d')) = V m c main_v20 _
    refine congrArg _ ?_
    funext a; apply Fin.ext
    match a with
    | ⟨0, _⟩ => show win0_1.index t (0 : Fin 3) * 1 + 1 * 0 = win0_3.index t (0 : Fin 3); omega
    | ⟨1, _⟩ => show win0_1.index t (1 : Fin 3) * 2048 + 1 * mm.val = mm.val; omega
    | ⟨2, _⟩ => show win0_1.index t (2 : Fin 3) * 64 + 1 * d'.val = d'.val; omega
  · show V m c main_v23 (((cfg0.win 2).blk t).view.emb (ix3 (0 : Fin 1) mm d)) = V m c main_v23 _
    refine congrArg _ ?_
    funext a; apply Fin.ext
    match a with
    | ⟨0, _⟩ => show win0_2.index t (0 : Fin 3) * 1 + 1 * 0 = win0_3.index t (0 : Fin 3); omega
    | ⟨1, _⟩ => show win0_2.index t (1 : Fin 3) * 2048 + 1 * mm.val = mm.val; omega
    | ⟨2, _⟩ => show win0_2.index t (2 : Fin 3) * 64 + 1 * d.val = d.val; omega

/-- An index of the output array is in point t's block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v24).slice (win0_3.rect t)).set ↔ _
  rw [View.set_slice_whole, Rect.mem_set_unit]
  exact Iff.rfl

/-- The blocks tile the output array: row n of head b is in the block of point (b, n / 512). -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The output array after the run is the attention of the three head-major arrays the region finds. -/
theorem final (c : Dev nD) :
    (dats m 0 c).arrAt 3 cfg0.N = att (V m c main_v17) (V m c main_v20) (V m c main_v23) :=
  (dats m 0 c).arrAt_eq_of_cover 3 _ (fun t _ => flushed_eq m c t) cover

end Cert.Attn.Blocks

end
-- ==== Proof.KernelRun.lean ====
/-
  The kernel's whole program as mathematics.  Before the grid the host binds the input to the signs of the query, key
  and value weights (the queries also scaled by 1/8), re-lays the three as heads and narrows them to the matrix unit's
  format, which over the extended reals changes nothing; it also takes the sign of the output weights.  The grid
  leaves the attention of those three head-major arrays in the output array (KernelBlocks.lean).  After the grid the
  host re-lays that array back, takes its sign and binds it to the sign of the output weights.  Together: the layer of
  Spec.lean of the five argument arrays.
-/
import proofs.«117379_j18270790877548_1_alg».proof.Proof.Gen.KernelIdeal.Frame
import proofs.«117379_j18270790877548_1_alg».proof.Proof.KernelBlocks
import Idealize.ShloMosaic.Lib.Pipeline.Value
import Idealize.ShloMosaic.Lib.StableHlo.Run

noncomputable section

namespace Cert.Attn.KernelRun

open Cert.KernelIdeal Cert.KernelIdeal.Gen Idealize.ShloMosaic Idealize.ShloMosaic.TcCoe Idealize.SL.Sem
open Idealize.ShloMosaic.ValueIdx Cert.Attn Idealize.ShloMosaic.StableHlo

variable (m : (ℓ : Loc nD τ sig) → Buf (Elt Ideal) ℓ) (ρ : Dev nD → PrngReg)

/-! ## What the region finds: the host operations before it -/

/-- The query heads: the input bound to the sign of the query weights, scaled by 1/8, head-major. -/
theorem q_heads (c : Dev nD) :
    (V m c main_v17 : SH.Idx → EReal)
      = toHeads (fun j => bind (m ((c.tc : Thread nD τ).loc main_arg0)) (m ((c.tc : Thread nD τ).loc main_arg1)) j * Ideal.ofBits .f32 0x3E000000#32) := by
  show StableHlo.after hostOps0 (fun b => m (c, b)) (Proc.devRef .tc main_v17) = _
  after_results
  rfl

/-- The key heads. -/
theorem k_heads (c : Dev nD) :
    (V m c main_v20 : SH.Idx → EReal) = toHeads (bind (m ((c.tc : Thread nD τ).loc main_arg0)) (m ((c.tc : Thread nD τ).loc main_arg2))) := by
  show StableHlo.after hostOps0 (fun b => m (c, b)) (Proc.devRef .tc main_v20) = _
  after_results
  rfl

/-- The value heads. -/
theorem v_heads (c : Dev nD) :
    (V m c main_v23 : SH.Idx → EReal) = toHeads (bind (m ((c.tc : Thread nD τ).loc main_arg0)) (m ((c.tc : Thread nD τ).loc main_arg3))) := by
  show StableHlo.after hostOps0 (fun b => m (c, b)) (Proc.devRef .tc main_v23) = _
  after_results
  rfl

/-- The sign of the output weights, computed before the region and read after it. -/
theorem o_sign (c : Dev nD) :
    (V m c main_v3 : SW.Idx → EReal) = fun e => Ideal.sign ((m ((c.tc : Thread nD τ).loc main_arg4)) e) := by
  show StableHlo.after hostOps0 (fun b => m (c, b)) (Proc.devRef .tc main_v3) = _
  after_results
  rfl

/-! ## The host operations after the region -/

/-- The region's output array, as the later host lines read it: the head-major output of the layer. -/
theorem out_array (c : Dev nD) :
    Pipeline.withArrays (cfgs 0).spec c (V0 m c) (fun w => (dats m 0 c).arrAt w (cfgs 0).N) (Proc.devRef .tc main_v24)
      = heads (m ((c.tc : Thread nD τ).loc main_arg0)) (m ((c.tc : Thread nD τ).loc main_arg1)) (m ((c.tc : Thread nD τ).loc main_arg2)) (m ((c.tc : Thread nD τ).loc main_arg3)) := by
  refine ((Pipeline.withArrays_arr spec0 launch0.win.arr_inj c _ _ 3).trans (Blocks.final m c)).trans ?_
  rw [q_heads, k_heads, v_heads]
  rfl

/-- The sign of the output weights is no array of the region: the later host lines read what the earlier ones wrote. -/
theorem out_sign (c : Dev nD) :
    Pipeline.withArrays (cfgs 0).spec c (V0 m c) (fun w => (dats m 0 c).arrAt w (cfgs 0).N) (Proc.devRef .tc main_v3)
      = fun e => Ideal.sign ((m ((c.tc : Thread nD τ).loc main_arg4)) e) :=
  (Pipeline.withArrays_of_ne spec0 c (V0 m c) _ main_v3 (by decide : ∀ w, Pipeline.arrRef spec0 w ≠ main_v3)).trans (o_sign m c)

/-- The program's result after the host tail is the layer of the argument arrays. -/
theorem tail_eq (c : Dev nD) :
    Pipeline.afterTail₀ cfgs (dats m) 0 (V0 m) [hostOps1] c main_v30
      = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v30) = _
  after_results
  rw [out_array, out_sign]
  rfl

/-! ## The run -/

/-- Every weakly fair execution of the kernel's program ends with the result array at the layer of the argument arrays
    and the argument arrays unchanged. -/
theorem run : θ_run defs (onTc (τ := τ) (main (F := Ideal))) ⟨m, fun _ => 0, ρ⟩ fun r => ∀ c : Dev nD,
      r.2.mem ((c.tc : Thread nD τ).loc main_v30) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Attn.KernelRun

end
-- ==== Proof.lean ====
/-
  A binarized ("hyperdimensional") multi-head attention layer: a Pallas kernel against its jnp reference, equal over the
  extended reals under the precondition that every input entry is finite.

  Both programs bind the input x[s, b, e] to the signs of four weight vectors, re-lay queries, keys and values as 32
  heads of 2048 positions by 64 channels, score each query row against each key row by their inner product, replace each
  score by 1 where it is positive and 0 elsewhere, add up the value rows so selected, re-lay the result back, take its
  sign and bind it to the sign of the output weights (Spec.lean's layer).

  The kernel scales the bound queries by the constant 1/8 before the layout change and runs the two contractions on a
  grid of 32 heads by 4 blocks of 512 query rows (KernelPayload.lean, KernelBlocks.lean, KernelRun.lean).  The reference
  divides the head-major queries by the square root of 64, which is 8, and writes each binarization in straight-through
  form (f y - y) + y; this is f y exactly when y is a real number, and that is where finiteness is used: the weights are
  real by the precondition, and scores and outputs are finite sums of products of real numbers (Finite.lean,
  RefLayer.lean).  The idealization rewrote no operation of the kernel, so what it preserves is nothing to prove.
-/
import proofs.«117379_j18270790877548_1_alg».proof.Defs
import proofs.«117379_j18270790877548_1_alg».proof.Proof.Gen.Kernel
import proofs.«117379_j18270790877548_1_alg».proof.Proof.Gen.Kernel.Frame
import proofs.«117379_j18270790877548_1_alg».proof.Proof.Gen.KernelIdeal
import proofs.«117379_j18270790877548_1_alg».proof.Proof.Gen.KernelIdeal.Frame
import proofs.«117379_j18270790877548_1_alg».proof.Proof.Gen.ReferenceIdeal
import proofs.«117379_j18270790877548_1_alg».proof.Proof.Gen.Pre_finite_inputs
import proofs.«117379_j18270790877548_1_alg».proof.Proof.Gen.ReferenceIdeal.Run
import proofs.«117379_j18270790877548_1_alg».proof.Proof.Gen.ReferenceIdeal.Read
import proofs.«117379_j18270790877548_1_alg».proof.Proof.Spec
import proofs.«117379_j18270790877548_1_alg».proof.Proof.Finite
import proofs.«117379_j18270790877548_1_alg».proof.Proof.RefLayer
import proofs.«117379_j18270790877548_1_alg».proof.Proof.KernelRun
import Idealize.ShloMosaic.Adequacy
import Idealize.ShloMosaic.Init

noncomputable section

namespace Cert.Proof

open Idealize.ShloMosaic Idealize.SL.Sem

/-- Each program runs to the end without a fault and leaves its arguments as they were: the two kernel programs by
    their generated frames, the reference by its generated run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over finite inputs both programs end with the layer of the argument arrays: the kernel whatever the inputs
    (KernelRun.lean), the reference because its inputs, agreeing with the kernel's, are real numbers (RefLayer.lean). -/
theorem algebraic : Cert.algebraic_KernelIdeal_ReferenceIdeal := by
  intro m ρ m' ρ' hpre hagree
  refine ⟨fun c => Cert.Attn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Attn.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Attn.Finite.real_of_pre _ _ _ _ _ (hpre c)
  rw [Cert.ReferenceIdeal.Read.val_main_v44_eq, (hagree c).1, (hagree c).2.1, (hagree c).2.2.1, (hagree c).2.2.2.1,
    (hagree c).2.2.2.2]
  exact Cert.Attn.Ref.reference_eq _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
